-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S384x50 : S_.BroadcastsInDim S384x50 (![] : Fin 0 → Fin S384x50.rank)
  reducesTo_S384x50_S_d0_1 : S384x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S2048x384 .f32) (main_arg1 : FVec F S32768x2048 .f32) (main_arg2 : FVec F S384x50 .f32) (main_arg3 : FVec F S50 .f32) : IVec S_ 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S384x50 .f32 := Host.absf main_arg2
  let main_cst_2 : FVec F S_ .f32 := constant S_ .f32 0x7F800000#32
  let main_v10 : FVec F S384x50 .f32 := broadcastInDim S384x50 ![] bcast_S_S384x50 main_cst_2
  let main_v11 : IVec S384x50 1 := cmpf .olt main_v9 main_v10
  let main_c_3 : IVec S_ 1 := constantI S_ 1 1#1
  let main_v12 : IVec S_ 1 := (fun x v => Host.reduce IntOp.andi x v reducesTo_S384x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S_ : Shape := ⟨0, ![]⟩
abbrev S384x128 : Shape := ⟨2, ![384, 128]⟩
abbrev S128 : Shape := ⟨1, ![128]⟩
abbrev S2048x128 : Shape := ⟨2, ![2048, 128]⟩
abbrev S32768x128 : Shape := ⟨2, ![32768, 128]⟩
abbrev S1024x2048 : Shape := ⟨2, ![1024, 2048]⟩
abbrev S1024x128 : Shape := ⟨2, ![1024, 128]⟩
abbrev S1x128 : Shape := ⟨2, ![1, 128]⟩
abbrev S32768x50 : Shape := ⟨2, ![32768, 50]⟩

abbrev nBuf : Space → Nat
  | .hbm => 13
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S32768x2048, .f32⟩
  | .hbm, ⟨2, _⟩ => ⟨S384x50, .f32⟩
  | .hbm, ⟨3, _⟩ => ⟨S50, .f32⟩
  | .hbm, ⟨4, _⟩ => ⟨S_, .i32⟩
  | .hbm, ⟨5, _⟩ => ⟨S_, .f32⟩
  | .hbm, ⟨6, _⟩ => ⟨S384x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S2048x128, .f32⟩
  | .hbm, ⟨11, _⟩ => ⟨S32768x128, .f32⟩
  | .hbm, ⟨12, _⟩ => ⟨S32768x50, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S128, .f32⟩
  | .local _ .vmem, ⟨4, _⟩ => ⟨S1024x128, .f32⟩
  | .local _ .vmem, ⟨5, _⟩ => ⟨S1024x128, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S384x50_S384x128_000_0780 : S384x50.Pads (![0, 0] : Fin 2 → Nat) ![0, 78] ![0, 0] S384x128
  h_S_ : 0 < S_.numel
  pads_S50_S128_0780 : S50.Pads (![0] : Fin 1 → Nat) ![78] ![0] S128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S32768x128_S32768x50_0_0 : S32768x128.Slices ![0, 0] S32768x50
  dot_S2048x384_S384x128_S2048x128_1_0_0_1_n_n_wf : DotDims.WF S2048x384 S384x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S32768x128.size a
  hwx0_3 : ∀ i : grid0.Coords, EltTy.bits .f32 = 32 ∨ (Rect.block (s := S32768x128) S1024x128.size (cc0_transform_3 i) (hinb0_3 i)).WholeWords (EltTy.packing .f32)

variable [Facts₀]

def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S32768x384 : Shape := ⟨2, ![32768, 384]⟩
abbrev S32768x50 : Shape := ⟨2, ![32768, 50]⟩
abbrev S1x50 : Shape := ⟨2, ![1, 50]⟩

abbrev nBuf : Space → Nat
  | .hbm => 9
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S32768x2048, .f32⟩
  | .hbm, ⟨2, _⟩ => ⟨S384x50, .f32⟩
  | .hbm, ⟨3, _⟩ => ⟨S50, .f32⟩
  | .hbm, ⟨4, _⟩ => ⟨S32768x384, .f32⟩
  | .hbm, ⟨5, _⟩ => ⟨S32768x50, .f32⟩
  | .hbm, ⟨6, _⟩ => ⟨S1x50, .f32⟩
  | .hbm, ⟨7, _⟩ => ⟨S32768x50, .f32⟩
  | .hbm, ⟨8, _⟩ => ⟨S32768x50, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  dot_S32768x2048_S2048x384_S32768x384_1_0_0_1_n_n_wf : DotDims.WF S32768x2048 S2048x384 S32768x384 [1] [0] [0] [1] [] []
  dot_S32768x384_S384x50_S32768x50_1_0_0_1_n_n_wf : DotDims.WF S32768x384 S384x50 S32768x50 [1] [0] [0] [1] [] []

variable [Facts₀]

def dot_S32768x2048_S2048x384_S32768x384_1_0_0_1_n_n : DotDims S32768x2048 S2048x384 S32768x384 where
  lhsContracting := [1]
  rhsContracting := [0]
  lhsNonContracting := [0]
  rhsNonContracting := [1]
  lhsBatch := []
  rhsBatch := []
  wf := dot_S32768x2048_S2048x384_S32768x384_1_0_0_1_n_n_wf
def dot_S32768x384_S384x50_S32768x50_1_0_0_1_n_n : DotDims S32768x384 S384x50 S32768x50 where
  lhsContracting := [1]
  rhsContracting := [0]
  lhsNonContracting := [0]
  rhsNonContracting := [1]
  lhsBatch := []
  rhsBatch := []
  wf := dot_S32768x384_S384x50_S32768x50_1_0_0_1_n_n_wf

class Facts : Prop extends Facts₀ where

variable [Facts]
-- ==== Proof.Logits.lean ====
/-
  The per-atom logits, written two ways.

  `s` is the token embedding (2048 tokens × 384 channels), `T` the atom-to-token incidence matrix
  (32768 atoms × 2048 tokens), `W` the projection (384 channels × 50 outputs) and `b` the bias (50 outputs).
  The logits of atom `a` at output `j` are `∑ r, ∑ c, T a r · s r c · W c j + b j`. One program first pools the
  embedding over tokens and then projects (`projectPooled`); the other first projects every token's embedding and
  then pools the projections (`poolProjected`). The two groupings of the double sum agree when every entry is a
  real number — over the extended reals in general they need not, since a product does not distribute over a sum
  that contains infinities of both signs.
-/
import Idealize.ShloMosaic.Lib.ValueIdx
import Idealize.ShloMosaic.PureOps.Ideal

noncomputable section

namespace Cert.Logits

open Idealize.ShloMosaic Idealize.ShloMosaic.ValueIdx

/-- Every entry of the family is (the extended real of) a real number. -/
def AllReal {ι : Type} (v : ι → EReal) : Prop := ∀ i, ∃ r : ℝ, v i = (r : EReal)

/-- Project each token's embedding, then pool the projections over the tokens of the atom:
    `∑ r, T a r · (∑ c, s r c · W c j) + b j`. -/
def poolProjected (s : (⟨2, ![2048, 384]⟩ : Shape).Idx → EReal) (T : (⟨2, ![32768, 2048]⟩ : Shape).Idx → EReal)
    (W : (⟨2, ![384, 50]⟩ : Shape).Idx → EReal) (b : (⟨1, ![50]⟩ : Shape).Idx → EReal) :
    (⟨2, ![32768, 50]⟩ : Shape).Idx → EReal := fun i =>
  (∑ r : Fin 2048, T (ix2 (i 0) r) * ∑ c : Fin 384, s (ix2 r c) * W (ix2 c (i 1))) + b (ix1 (i 1))

/-- Pool the embedding over the tokens of the atom, then project the pooled embedding:
    `∑ c, (∑ r, T a r · s r c) · W c j + b j`. -/
def projectPooled (s : (⟨2, ![2048, 384]⟩ : Shape).Idx → EReal) (T : (⟨2, ![32768, 2048]⟩ : Shape).Idx → EReal)
    (W : (⟨2, ![384, 50]⟩ : Shape).Idx → EReal) (b : (⟨1, ![50]⟩ : Shape).Idx → EReal) :
    (⟨2, ![32768, 50]⟩ : Shape).Idx → EReal := fun i =>
  (∑ c : Fin 384, (∑ r : Fin 2048, T (ix2 (i 0) r) * s (ix2 r c)) * W (ix2 c (i 1))) + b (ix1 (i 1))

end Cert.Logits

end
-- ==== Proof.Regroup.lean ====
/-
  The regrouping law for the per-atom logits: pooling the projections equals projecting the pooled embedding,
  when every entry of the embedding, the incidence matrix and the projection is a real number.

  Over the reals this is the rearrangement of a finite double sum,
  `∑ r, t r * ∑ c, σ r c * w c = ∑ c, (∑ r, t r * σ r c) * w c`: distribute each product over the inner sum,
  exchange the two summations, and reassociate the products. The extended-real statement follows because the
  inclusion of the reals into the extended reals preserves products and finite sums, so both sides are the image
  of the two sides of the real identity. The bias is added to both sides and need not be finite.
-/
import proofs.«151351_j58591943852065_2_alg».proof.Proof.Logits
import Mathlib.Algebra.BigOperators.Ring.Finset
import Mathlib.Data.EReal.Basic

noncomputable section

namespace Cert.Logits

open Idealize.ShloMosaic Idealize.ShloMosaic.ValueIdx

/-- The inclusion of the reals into the extended reals preserves finite sums. -/
private theorem coe_finsetSum {ι : Type} (A : Finset ι) (f : ι → ℝ) :
    ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- Regrouping a finite double sum of real numbers. -/
private theorem real_regroup {ρ κ : Type} [Fintype ρ] [Fintype κ]
    (t : ρ → ℝ) (σ : ρ → κ → ℝ) (w : κ → ℝ) :
    ∑ r, t r * ∑ c, σ r c * w c = ∑ c, (∑ r, t r * σ r c) * w c := by
  simp only [Finset.mul_sum, Finset.sum_mul]
  rw [Finset.sum_comm]
  exact Finset.sum_congr rfl fun c _ => Finset.sum_congr rfl fun r _ => (mul_assoc _ _ _).symm

/-- The same regrouping for extended reals that are images of real numbers. -/
private theorem ereal_regroup {ρ κ : Type} [Fintype ρ] [Fintype κ]
    (t : ρ → ℝ) (σ : ρ → κ → ℝ) (w : κ → ℝ) :
    ∑ r, (t r : EReal) * ∑ c, (σ r c : EReal) * (w c : EReal)
      = ∑ c, (∑ r, (t r : EReal) * (σ r c : EReal)) * (w c : EReal) := by
  simp only [← EReal.coe_mul, ← coe_finsetSum]
  exact congrArg Real.toEReal (real_regroup t σ w)

theorem poolProjected_eq_projectPooled
    (s : (⟨2, ![2048, 384]⟩ : Shape).Idx → EReal) (T : (⟨2, ![32768, 2048]⟩ : Shape).Idx → EReal)
    (W : (⟨2, ![384, 50]⟩ : Shape).Idx → EReal) (b : (⟨1, ![50]⟩ : Shape).Idx → EReal)
    (hs : AllReal s) (hT : AllReal T) (hW : AllReal W) :
    poolProjected s T W b = projectPooled s T W b := by
  have hs' : ∀ i, ∃ x : ℝ, s i = (x : EReal) := hs
  have hT' : ∀ i, ∃ x : ℝ, T i = (x : EReal) := hT
  have hW' : ∀ i, ∃ x : ℝ, W i = (x : EReal) := hW
  choose fs hfs using hs'
  choose fT hfT using hT'
  choose fW hfW using hW'
  funext i
  simp only [poolProjected, projectPooled, hfs, hfT, hfW]
  exact congrArg (· + b (ix1 (i 1)))
    (ereal_regroup (fun r => fT (ix2 (i 0) r)) (fun r c => fs (ix2 r c)) (fun c => fW (ix2 c (i 1))))

end Cert.Logits

end
-- ==== Proof.RealInputs.lean ====
/-
  From the printed finiteness test to "every input entry is a real number".

  The test computes, for each of the four inputs, the conjunction over all entries of `|x| < +∞`, and joins the four
  bits by `and`. Over the extended reals `|x| = max x (-x)`, which is `+∞` at both infinities, so an entry passing
  the test is (the extended real of) a real number.
-/
import proofs.«151351_j58591943852065_2_alg».proof.Proof.Gen.Pre_finite_inputs
import proofs.«151351_j58591943852065_2_alg».proof.Proof.Logits
import Idealize.ShloMosaic.Lib.ReduceAll
import Idealize.ShloMosaic.PureOps.Ideal.Laws

noncomputable section
namespace Cert.Logits
open Idealize.ShloMosaic

/-- The bit pattern `0x7F800000` of the 32-bit format denotes `+∞`. -/
private theorem ofBits_posInf : Ideal.ofBits .f32 0x7F800000#32 = (⊤ : EReal) := by
  simp [Ideal.ofBits, Ideal.ieee]

/-- An extended real whose absolute value `max x (-x)` lies strictly below `+∞` is a real number:
    at `-∞` the negation is `+∞`, at `+∞` the value itself is. -/
private theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has exactly one index. -/
private instance : Subsingleton Cert.Pre_finite_inputs.S_.Idx := ⟨fun a b => funext fun d => d.elim0⟩

/-- If the conjunction over all entries of the test `|x i| < +∞` came out true, every entry of `x` is a real number.
    The bound is any family that is `+∞` at every index. -/
private theorem allReal_of_all_lt {s : Shape} {axes : List (Fin s.rank)} (x c : FVec Ideal s .f32)
    (hc : ∀ i, c i = (⊤ : EReal)) (init : IVec Cert.Pre_finite_inputs.S_ 1)
    (hr : s.ReducesTo axes Cert.Pre_finite_inputs.S_) (hu : 0 < Cert.Pre_finite_inputs.S_.numel)
    (e : Host.reduce IntOp.andi (cmpf .olt (Host.absf x) c) init hr hu ValueIdx.ix0 = 1#1) : AllReal x := by
  intro i
  have hi := Host.reduce_andi_all _ init hr hu ValueIdx.ix0 e i
  have hi' : Ideal.cmp .olt (max (x i) (-(x i))) (c i) = 1#1 := hi
  rw [hc i] at hi'
  have hb : BitVec.ofBool (decide (max (x i) (-(x i)) < (⊤ : EReal))) = 1#1 := hi'
  apply real_of_abs_lt_top
  by_cases hlt : max (x i) (-(x i)) < (⊤ : EReal)
  · exact hlt
  · rw [decide_eq_false hlt] at hb
    exact absurd hb (by decide)

theorem allReal_of_finite_inputs [Cert.Pre_finite_inputs.Facts]
    (a0 : FVec Ideal Cert.Pre_finite_inputs.S2048x384 .f32) (a1 : FVec Ideal Cert.Pre_finite_inputs.S32768x2048 .f32)
    (a2 : FVec Ideal Cert.Pre_finite_inputs.S384x50 .f32) (a3 : FVec Ideal Cert.Pre_finite_inputs.S50 .f32)
    (h : Cert.Pre_finite_inputs.fn (F := Ideal) a0 a1 a2 a3 = fun _ => 1#1) :
    AllReal a0 ∧ AllReal a1 ∧ AllReal a2 ∧ AllReal a3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  have top : ∀ (t : Shape) (hb : Cert.Pre_finite_inputs.S_.BroadcastsInDim t (![] : Fin 0 → Fin t.rank)) (j : t.Idx),
      broadcastInDim t ![] hb (constant (F := Ideal) Cert.Pre_finite_inputs.S_ .f32 0x7F800000#32) j = (⊤ : EReal) :=
    fun _ _ _ => ofBits_posInf
  exact ⟨allReal_of_all_lt a0 _ (top _ _) _ _ _ h0', allReal_of_all_lt a1 _ (top _ _) _ _ _ h1,
    allReal_of_all_lt a2 _ (top _ _) _ _ _ h2, allReal_of_all_lt a3 _ (top _ _) _ _ _ h3⟩

end Cert.Logits
end
-- ==== Proof.RefLogits.lean ====
/-
  The reference program's result is `projectPooled`.

  The reference first contracts the incidence matrix with the embedding over the token axis, then contracts the
  result with the projection over the channel axis, then adds the bias broadcast along the atom axis. Reading its
  result at an index `i` through the generated read-at-an-index lemmas gives
  `∑ k, (∑ r, T (i 0, r) * s (r, k)) * W (k, i 1) + b (i 1)`, once the composed index functions of the two
  contractions and the two broadcasts are identified with the rank-2 and rank-1 index constructors.
-/
import proofs.«151351_j58591943852065_2_alg».proof.Proof.Gen.ReferenceIdeal.Read
import proofs.«151351_j58591943852065_2_alg».proof.Proof.Logits

noncomputable section

namespace Cert.Logits

open Idealize.ShloMosaic Idealize.ShloMosaic.ValueIdx Cert.ReferenceIdeal Cert.ReferenceIdeal.Gen

theorem reference_eq_projectPooled
    (x0 : FVec Ideal Cert.ReferenceIdeal.S2048x384 .f32) (x1 : FVec Ideal Cert.ReferenceIdeal.S32768x2048 .f32)
    (x2 : FVec Ideal Cert.ReferenceIdeal.S384x50 .f32) (x3 : FVec Ideal Cert.ReferenceIdeal.S50 .f32) :
    Cert.ReferenceIdeal.Read.val_main_v4 (F := Ideal) x0 x1 x2 x3 = projectPooled x0 x1 x2 x3 := by
  funext i
  -- The outer contraction reads the pooled embedding at (atom, channel) and the projection at (channel, output).
  have l1 : ∀ k : Fin 384, Read.lidx_main_v1 i k = ix2 (n0 := 32768) (n1 := 384) (i 0) k := fun k =>
    funext fun a => Fin.ext (by match a with | ⟨0, _⟩ => rfl | ⟨1, _⟩ => rfl)
  have r1 : ∀ k : Fin 384, Read.ridx_main_v1 i k = ix2 (n0 := 384) (n1 := 50) k (i 1) := fun k =>
    funext fun a => Fin.ext (by match a with | ⟨0, _⟩ => rfl | ⟨1, _⟩ => rfl)
  -- The inner contraction reads the incidence matrix at (atom, token) and the embedding at (token, channel).
  have l0 : ∀ (k : Fin 384) (r : Fin 2048),
      Read.lidx_main_v0 (ix2 (n0 := 32768) (n1 := 384) (i 0) k) r
        = ix2 (n0 := 32768) (n1 := 2048) (i 0) r := fun k r =>
    funext fun a => Fin.ext (by match a with | ⟨0, _⟩ => rfl | ⟨1, _⟩ => rfl)
  have r0 : ∀ (k : Fin 384) (r : Fin 2048),
      Read.ridx_main_v0 (ix2 (n0 := 32768) (n1 := 384) (i 0) k) r
        = ix2 (n0 := 2048) (n1 := 384) r k := fun k r =>
    funext fun a => Fin.ext (by match a with | ⟨0, _⟩ => rfl | ⟨1, _⟩ => rfl)
  -- The two broadcasts read the bias at the output coordinate.
  have hb : Read.idx_main_v2 (Read.idx_main_v3 i) = ix1 (n := 50) (i 1) :=
    funext fun a => Fin.ext (by match a with | ⟨0, _⟩ => rfl)
  rw [Read.val_main_v4_apply, Read.val_main_v1_apply, Read.val_main_v3_apply, Read.val_main_v2_apply]
  simp only [l1, r1, hb, Ideal.addf_def, projectPooled]
  -- What remains is the inner contraction, one channel at a time.
  refine congrArg (· + x3 (ix1 (i 1))) (Finset.sum_congr rfl fun k _ => ?_)
  rw [Read.val_main_v0_apply]
  simp only [l0, r0]

end Cert.Logits

end
-- ==== Proof.BlockLogits.lean ====
/-
  What the kernel body computes for one block of atoms, read at an entry.

  The body takes a block `x0` of 1024 rows of the incidence matrix (1024 × 2048), the whole projected embedding
  `x1` (2048 × 128) and the padded bias `x2` (128), and stores `x0 · x1 + x2` (the bias added to every row). At
  the ideal values the roundings of the two factors to bf16 are the identity and the product into a zero
  accumulator is the plain sum, so the stored block at row `p`, column `q` is `∑ k, x0 (p, k) · x1 (k, q) + x2 q`.
-/
import proofs.«151351_j58591943852065_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Logits.Kernel

open Idealize.ShloMosaic Idealize.ShloMosaic.ValueIdx Cert.KernelIdeal Cert.KernelIdeal.Gen

/-- The left factor's index at result index `i` and contraction position `κ`: the result's row, -/
theorem lhs_row (i : S1024x128.Idx) (κ : dot_S1024x2048_S2048x128_S1024x128_1_0_0_1_n_n.contr.Idx) :
    (dot_S1024x2048_S2048x128_S1024x128_1_0_0_1_n_n.lhsIdx i κ 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- and the contraction position. -/
theorem lhs_col (i : S1024x128.Idx) (κ : dot_S1024x2048_S2048x128_S1024x128_1_0_0_1_n_n.contr.Idx) :
    (dot_S1024x2048_S2048x128_S1024x128_1_0_0_1_n_n.lhsIdx i κ 1).val = (κ ⟨0, by decide⟩).val :=
  dot_S1024x2048_S2048x128_S1024x128_1_0_0_1_n_n.lhsIdx_val_of_single rfl i κ
/-- The right factor's: the contraction position, -/
theorem rhs_row (i : S1024x128.Idx) (κ : dot_S1024x2048_S2048x128_S1024x128_1_0_0_1_n_n.contr.Idx) :
    (dot_S1024x2048_S2048x128_S1024x128_1_0_0_1_n_n.rhsIdx i κ 0).val = (κ ⟨0, by decide⟩).val :=
  dot_S1024x2048_S2048x128_S1024x128_1_0_0_1_n_n.rhsIdx_val_of_single rfl i κ
/-- and the result's column. -/
theorem rhs_col (i : S1024x128.Idx) (κ : dot_S1024x2048_S2048x128_S1024x128_1_0_0_1_n_n.contr.Idx) :
    (dot_S1024x2048_S2048x128_S1024x128_1_0_0_1_n_n.rhsIdx i κ 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator at `(p, q)`: the sum over the 2048 tokens of the row's entry times
    the column's. -/
theorem blockDot_apply (x0 : FVec Ideal S1024x2048 .bf16) (x1 : FVec Ideal S2048x128 .bf16) (p : Fin 1024) (q : Fin 128) :
    matmul dot_S1024x2048_S2048x128_S1024x128_1_0_0_1_n_n none x0 x1 (constant (F := Ideal) S1024x128 .f32 0x00000000#32) (ix2 p q)
      = ∑ k : Fin 2048, x0 (ix2 p k) * x1 (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_row _ _
    | ⟨1, _⟩ => exact (lhs_col _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_row _ _).trans hk
    | ⟨1, _⟩ => exact rhs_col _ _)
  rw [el, er]

/-- The stored block at `(p, q)`: the row of the incidence block against the column of the projected embedding,
    plus the bias of the column. -/
theorem blockLogits_apply (x0 : Vec Ideal S1024x2048 .f32) (x1 : Vec Ideal S2048x128 .f32) (x2 : Vec Ideal S128 .f32)
    (p : Fin 1024) (q : Fin 128) :
    k0_pay1 (F := Ideal) x0 x1 x2 (ix2 p q) = (∑ k : Fin 2048, x0 (ix2 p k) * x1 (ix2 k q)) + x2 (ix1 q) := by
  unfold k0_pay1
  refine (addf_apply _ _ _).trans ?_
  refine congrArg₂ (· + ·) ?_ ?_
  · refine (blockDot_apply _ _ p q).trans ?_
    rw [shapeCast_self]
    rfl
  · refine (broadcastTo_1b_ab_apply _ _ p q).trans ?_
    refine (shapeCast_a_1a_apply _ _ (0 : Fin 1) q).trans ?_
    rw [shapeCast_self]

end Cert.Logits.Kernel

end
-- ==== Proof.Arrays.lean ====
/-
  Names for the arrays the kernel program works on, as families of extended reals.

  As launched: the embedding (2048 × 384), the incidence matrix (32768 × 2048), the projection (384 × 50) and the
  bias (50). As the region finds them: the incidence matrix again (no host operation writes it), the projected
  embedding (2048 × 128) and the padded bias (128), both written by the host before the region.
-/
import proofs.«151351_j58591943852065_2_alg».proof.Proof.Gen.KernelIdeal.Frame
import Idealize.ShloMosaic.PureOps.Ideal

noncomputable section

namespace Cert.Logits.Kernel

open Idealize.ShloMosaic Idealize.ShloMosaic.TcCoe Idealize.SL.Sem
open Cert.KernelIdeal Cert.KernelIdeal.Gen

variable (m : (ℓ : Loc nD τ sig) → Buf (Elt Ideal) ℓ)

/-- The four argument arrays as launched: the embedding, the incidence matrix, the projection and the bias. -/
abbrev embedding (c : Dev nD) : FVec Ideal S2048x384 .f32 := m ((c : Thread nD τ).loc main_arg0)
abbrev incidence (c : Dev nD) : FVec Ideal S32768x2048 .f32 := m ((c : Thread nD τ).loc main_arg1)
abbrev projection (c : Dev nD) : FVec Ideal S384x50 .f32 := m ((c : Thread nD τ).loc main_arg2)
abbrev bias (c : Dev nD) : FVec Ideal S50 .f32 := m ((c : Thread nD τ).loc main_arg3)
/-- The three arrays the region reads, as it finds them. -/
abbrev incidenceArr (c : Dev nD) : FVec Ideal S32768x2048 .f32 := V m c main_arg1
abbrev projectedArr (c : Dev nD) : FVec Ideal S2048x128 .f32 := V m c main_v2
abbrev biasArr (c : Dev nD) : FVec Ideal S128 .f32 := V m c main_v1

/-- The region finds the incidence matrix as launched. -/
theorem incidenceArr_eq (c : Dev nD) : incidenceArr m c = incidence m c := V_main_arg1 m c

end Cert.Logits.Kernel

end
-- ==== Proof.ArrayLogits.lean ====
/-
  From the blocks the kernel writes to the whole array.

  The grid has 32 points. At point `t` the kernel reads rows `1024·t … 1024·t + 1023` of the incidence matrix, the
  whole projected embedding and the whole padded bias, and writes rows `1024·t … 1024·t + 1023` of the result. So
  every entry `(a, q)` of the result array is written exactly once, by point `a / 1024`, with
  `∑ k, T (a, k) · P (k, q) + β q` where `P` is the projected embedding and `β` the padded bias.
-/
import proofs.«151351_j58591943852065_2_alg».proof.Proof.Gen.KernelIdeal.Frame
import proofs.«151351_j58591943852065_2_alg».proof.Proof.BlockLogits
import proofs.«151351_j58591943852065_2_alg».proof.Proof.Arrays
import Idealize.ShloMosaic.Lib.ValueIdx
import Idealize.ShloMosaic.Lib.Pipeline.Value

set_option maxRecDepth 16384

noncomputable section

namespace Cert.Logits.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- Rows of the incidence matrix against the projected embedding, plus the padded bias: the padded logits. -/
def paddedLogits (T : S32768x2048.Idx → EReal) (P : S2048x128.Idx → EReal) (β : S128.Idx → EReal) : S32768x128.Idx → EReal :=
  fun i => (∑ k : Fin 2048, T (ix2 (n0 := 32768) (n1 := 2048) (i 0) k) * P (ix2 (n0 := 2048) (n1 := 128) k (i 1)))
    + β (ix1 (n := 128) (i 1))

/-- The block indices over the grid: the incidence and result windows move down one block of rows per point, the
    other two windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The second window's block is the whole projected embedding at every point. -/
theorem iblk_projected (c : Dev nD) (t : Fin cfg0.N) : (iblk m c 1 t : S2048x128.Idx → EReal) = projectedArr m c := by
  obtain ⟨-, -, e0, e1, -, -, -⟩ := idx_facts t
  funext y
  unfold iblk
  rw [View.read_apply]
  show V m c main_v2 _ = V m c main_v2 y
  refine congrArg (V m c main_v2) (funext fun a => Fin.ext ?_)
  match a with
  | ⟨0, _⟩ => show win0_1.index t (0 : Fin 2) * 2048 + 1 * (y 0).val = (y 0).val; omega
  | ⟨1, _⟩ => show win0_1.index t (1 : Fin 2) * 128 + 1 * (y 1).val = (y 1).val; omega

/-- The third window's block is the whole padded bias at every point. -/
theorem iblk_bias (c : Dev nD) (t : Fin cfg0.N) : (iblk m c 2 t : S128.Idx → EReal) = biasArr m c := by
  obtain ⟨-, -, -, -, e0, -, -⟩ := idx_facts t
  funext y
  unfold iblk
  rw [View.read_apply]
  show V m c main_v1 _ = V m c main_v1 y
  refine congrArg (V m c main_v1) (funext fun a => Fin.ext ?_)
  match a with
  | ⟨0, _⟩ => show win0_2.index t (0 : Fin 1) * 128 + 1 * (y 0).val = (y 0).val; omega

/-- The first window's block at point `t` is rows `1024·t …` of the incidence matrix. -/
theorem iblk_incidence (c : Dev nD) (t : Fin cfg0.N) (p : Fin 1024) (k : Fin 2048) (a : Fin 32768) (ha : a.val = t.val * 1024 + p.val) :
    (iblk m c 0 t : S1024x2048.Idx → EReal) (ix2 p k) = incidenceArr m c (ix2 a k) := by
  obtain ⟨e0, e1, -, -, -, -, -⟩ := idx_facts t
  unfold iblk
  rw [View.read_apply]
  show V m c main_arg1 _ = V m c main_arg1 (ix2 a k)
  refine congrArg (V m c main_arg1) (funext fun b => Fin.ext ?_)
  match b with
  | ⟨0, _⟩ => show win0_0.index t (0 : Fin 2) * 1024 + 1 * p.val = a.val; omega
  | ⟨1, _⟩ => show win0_0.index t (1 : Fin 2) * 2048 + 1 * k.val = k.val; omega

/-- What point `t` writes back is block `t` of the padded logits of the arrays the region finds. -/
theorem flushed_eq (c : Dev nD) (t : Fin cfg0.N) :
    (dats m 0 c).flushed 3 t = ((cfg0.win 3).blk t).view.read (Elt Ideal)
      (paddedLogits (incidenceArr m c) (projectedArr m c) (biasArr m c)) := by
  show (cfg0.win 3).cut (grid0.coords t) ((dats m 0 c).after 3 t) = _
  rw [after0_3]
  unfold out0_3
  rw [View.canon_unit_zero zero2]
  simp only [View.ld_unit_zero (S := S1024x2048) zero2, View.ld_unit_zero (S := S2048x128) zero2, View.ld_unit_zero (S := S128) zero1]
  obtain ⟨-, -, -, -, -, e0, e1⟩ := idx_facts t
  have ht : t.val < 32 := Nat.lt_of_lt_of_eq t.isLt N_0
  funext j
  obtain ⟨p, q, rfl⟩ : ∃ (p : Fin 1024) (q : Fin 128), j = ix2 p q :=
    ⟨⟨(j 0).val, (j 0).isLt⟩, ⟨(j 1).val, (j 1).isLt⟩, funext fun a => Fin.ext (by match a with | ⟨0, _⟩ => rfl | ⟨1, _⟩ => rfl)⟩
  have hemb : ((cfg0.win 3).blk t).view.emb (ix2 p q)
      = ix2 (n0 := 32768) (n1 := 128) ⟨t.val * 1024 + p.val, by have := p.isLt; omega⟩ q := funext fun a => Fin.ext (by
    match a with
    | ⟨0, _⟩ => show win0_3.index t (0 : Fin 2) * 1024 + 1 * p.val = t.val * 1024 + p.val; omega
    | ⟨1, _⟩ => show win0_3.index t (1 : Fin 2) * 128 + 1 * q.val = q.val; omega)
  show k0_pay1 (F := Ideal) (iblk m c 0 t) (iblk m c 1 t) (iblk m c 2 t) (ix2 p q)
    = paddedLogits (incidenceArr m c) (projectedArr m c) (biasArr m c) (((cfg0.win 3).blk t).view.emb (ix2 p q))
  rw [hemb, blockLogits_apply, iblk_projected, iblk_bias]
  show _ = (∑ k : Fin 2048, incidenceArr m c (ix2 (n0 := 32768) (n1 := 2048) ⟨t.val * 1024 + p.val, _⟩ k) * projectedArr m c (ix2 k q))
    + biasArr m c (ix1 q)
  exact congrArg (· + biasArr m c (ix1 q)) (Finset.sum_congr rfl fun k _ =>
    congrArg (· * projectedArr m c (ix2 k q)) (iblk_incidence m c t p k _ rfl))

/-- An entry of the result array is in point `t`'s block iff each coordinate is in the block's range on its axis. -/
theorem mem_blk (t : Fin cfg0.N) (i : S32768x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v3).slice (win0_3.rect t)).set ↔ _
  rw [View.set_slice_whole, Rect.mem_set_unit]
  exact Iff.rfl

/-- Every entry of the result array is written by some point: row `r` by point `r / 1024`. -/
theorem covered (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, Nat.lt_of_lt_of_eq (by omega : (i 0).val / 1024 < 32) N_0.symm⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The result array after the region: the padded logits of the arrays the region finds. -/
theorem final (c : Dev nD) :
    (dats m 0 c).arrAt 3 cfg0.N = paddedLogits (incidenceArr m c) (projectedArr m c) (biasArr m c) :=
  (dats m 0 c).arrAt_eq_of_cover 3 _ (fun t _ => flushed_eq m c t) covered

end Cert.Logits.Kernel

end
-- ==== Proof.Projected.lean ====
/-
  What the region finds in the arrays the host computed before it.

  Before the region the host pads the projection `W` (384 × 50) with 78 zero columns to 384 × 128, pads the bias
  `b` (50) with 78 zeros to 128, and multiplies the embedding `s` (2048 × 384) by the padded projection. At a
  column `q` below 50 the padding is not seen: the padded projection is `W` there, the padded bias is `b` there,
  and the projected embedding at `(r, q)` is `∑ c, s (r, c) · W (c, q)`.
-/
import proofs.«151351_j58591943852065_2_alg».proof.Proof.Gen.KernelIdeal.Frame
import proofs.«151351_j58591943852065_2_alg».proof.Proof.Arrays
import Idealize.ShloMosaic.Lib.ValueIdx
import Idealize.ShloMosaic.Lib.Pipeline.Value
import Idealize.ShloMosaic.Lib.KernelVsHost
import Idealize.ShloMosaic.Lib.StableHlo.Run
import Idealize.ShloMosaic.PureOps.Ideal.Laws

noncomputable section

namespace Cert.Logits.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The second window's array at the region's entry: the embedding times the padded projection. -/
theorem V_projected (c : Dev nD) :
    projectedArr m c =
      Host.dotGeneral (F := Ideal) (φ₁ := .f32) (φ₂ := .f32) dot_S2048x384_S384x128_S2048x128_1_0_0_1_n_n none (embedding m c)
        (pad S384x128 ![0, 0] ![0, 78] ![0, 0] (projection m c)
          (sitofp (F := Ideal) .f32 (constantI S_ 32 0#32)) pads_S384x50_S384x128_000_0780 h_S_) := by
  dsimp only [projectedArr, embedding, projection, V, V0]
  simp only [hostOps0, hostOps0_1, hostOps0_2, hostOps0_3, hostOps0_4, List.flatten_cons, List.flatten_nil, List.append_nil,
    List.cons_append, List.nil_append]
  after_results
  rfl

/-- The third window's array at the region's entry: the padded bias. -/
theorem V_bias (c : Dev nD) :
    biasArr m c =
      pad S128 ![0] ![78] ![0] (bias m c)
        (sitofp (F := Ideal) .f32 (constantI S_ 32 0#32)) pads_S50_S128_0780 h_S_ := by
  dsimp only [biasArr, bias, V, V0]
  simp only [hostOps0, hostOps0_1, hostOps0_2, hostOps0_3, hostOps0_4, List.flatten_cons, List.flatten_nil, List.append_nil,
    List.cons_append, List.nil_append]
  after_results
  rfl

/-- The host product's left factor index at result index `i` and contraction position `κ`: the result's row, -/
theorem hostLhs_row (i : S2048x128.Idx) (κ : dot_S2048x384_S384x128_S2048x128_1_0_0_1_n_n.contr.Idx) :
    (dot_S2048x384_S384x128_S2048x128_1_0_0_1_n_n.lhsIdx i κ 0).val = (i 0).val := by
  unfold DotDims.lhsIdx
  rw [dif_neg (show ¬(0 : Fin S2048x384.rank) ∈ dot_S2048x384_S384x128_S2048x128_1_0_0_1_n_n.lhsBatch by decide), dif_pos (show (0 : Fin S2048x384.rank) ∈ dot_S2048x384_S384x128_S2048x128_1_0_0_1_n_n.lhsNonContracting by decide)]
  rfl
/-- and the contraction position. -/
theorem hostLhs_col (i : S2048x128.Idx) (κ : dot_S2048x384_S384x128_S2048x128_1_0_0_1_n_n.contr.Idx) :
    (dot_S2048x384_S384x128_S2048x128_1_0_0_1_n_n.lhsIdx i κ 1).val = (κ ⟨0, by decide⟩).val :=
  dot_S2048x384_S384x128_S2048x128_1_0_0_1_n_n.lhsIdx_val_of_single rfl i κ
/-- The right factor's: the contraction position, -/
theorem hostRhs_row (i : S2048x128.Idx) (κ : dot_S2048x384_S384x128_S2048x128_1_0_0_1_n_n.contr.Idx) :
    (dot_S2048x384_S384x128_S2048x128_1_0_0_1_n_n.rhsIdx i κ 0).val = (κ ⟨0, by decide⟩).val :=
  dot_S2048x384_S384x128_S2048x128_1_0_0_1_n_n.rhsIdx_val_of_single rfl i κ
/-- and the result's column. -/
theorem hostRhs_col (i : S2048x128.Idx) (κ : dot_S2048x384_S384x128_S2048x128_1_0_0_1_n_n.contr.Idx) :
    (dot_S2048x384_S384x128_S2048x128_1_0_0_1_n_n.rhsIdx i κ 1).val = (i 1).val := by
  unfold DotDims.rhsIdx
  rw [dif_neg (show ¬(1 : Fin S384x128.rank) ∈ dot_S2048x384_S384x128_S2048x128_1_0_0_1_n_n.rhsBatch by decide), dif_pos (show (1 : Fin S384x128.rank) ∈ dot_S2048x384_S384x128_S2048x128_1_0_0_1_n_n.rhsNonContracting by decide)]
  rfl

/-- The host's product at `(r, q)`: the sum over the 384 channels of the row's entry times the column's. -/
theorem hostDot_apply (x : FVec Ideal S2048x384 .f32) (w : FVec Ideal S384x128 .f32) (r : Fin 2048) (q : Fin 128) :
    Host.dotGeneral (F := Ideal) (φ₁ := .f32) (φ₂ := .f32) dot_S2048x384_S384x128_S2048x128_1_0_0_1_n_n none x w (ix2 r q)
      = ∑ k : Fin 384, x (ix2 r k) * w (ix2 k q) := by
  simp only [Host.dotGeneral]
  rw [Ideal.dotGeneral_apply, ← Equiv.sum_comp (contrEquiv1 dot_S2048x384_S384x128_S2048x128_1_0_0_1_n_n 384 rfl rfl).symm]
  refine Finset.sum_congr rfl fun k _ => ?_
  have hk := contrEquiv1_symm_val dot_S2048x384_S384x128_S2048x128_1_0_0_1_n_n 384 rfl rfl k
  have el : dot_S2048x384_S384x128_S2048x128_1_0_0_1_n_n.lhsIdx (ix2 r q) ((contrEquiv1 dot_S2048x384_S384x128_S2048x128_1_0_0_1_n_n 384 rfl rfl).symm k) = ix2 r k := funext fun a => Fin.ext (by
    match a with
    | ⟨0, _⟩ => exact hostLhs_row _ _
    | ⟨1, _⟩ => exact (hostLhs_col _ _).trans hk)
  have er : dot_S2048x384_S384x128_S2048x128_1_0_0_1_n_n.rhsIdx (ix2 r q) ((contrEquiv1 dot_S2048x384_S384x128_S2048x128_1_0_0_1_n_n 384 rfl rfl).symm k) = ix2 k q := funext fun a => Fin.ext (by
    match a with
    | ⟨0, _⟩ => exact (hostRhs_row _ _).trans hk
    | ⟨1, _⟩ => exact hostRhs_col _ _)
  rw [el, er]

/-- The padded projection at a column below 50 is the projection. -/
theorem paddedW_apply {u : Shape} (W : FVec Ideal S384x50 .f32) (z : u.Idx → EReal) (hu : 0 < u.numel)
    (k : Fin 384) (q : Fin 128) (q' : Fin 50) (hq : q.val = q'.val) :
    pad S384x128 ![0, 0] ![0, 78] ![0, 0] W z pads_S384x50_S384x128_000_0780 hu (ix2 k q) = W (ix2 k q') :=
  pad_apply_of_inside _ _ _ W z _ hu (ix2 k q) (ix2 k q') fun a => by
    match a with
    | ⟨0, _⟩ => show k.val = 0 + k.val * (0 + 1); omega
    | ⟨1, _⟩ => show q.val = 0 + q'.val * (0 + 1); omega

/-- The padded bias at a column below 50 is the bias. -/
theorem paddedB_apply {u : Shape} (b : FVec Ideal S50 .f32) (z : u.Idx → EReal) (hu : 0 < u.numel)
    (q : Fin 128) (q' : Fin 50) (hq : q.val = q'.val) :
    pad S128 ![0] ![78] ![0] b z pads_S50_S128_0780 hu (ix1 q) = b (ix1 q') :=
  pad_apply_of_inside _ _ _ b z _ hu (ix1 q) (ix1 q') fun a => by
    match a with
    | ⟨0, _⟩ => show q.val = 0 + q'.val * (0 + 1); omega

/-- The projected embedding the region finds, at row `r` and a column below 50: the embedding's row against the
    projection's column. -/
theorem projected_apply (c : Dev nD) (r : Fin 2048) (q : Fin 128) (q' : Fin 50) (hq : q.val = q'.val) :
    projectedArr m c (ix2 r q) = ∑ k : Fin 384, embedding m c (ix2 r k) * projection m c (ix2 k q') := by
  rw [V_projected, hostDot_apply]
  exact Finset.sum_congr rfl fun k _ => congrArg _ (paddedW_apply _ _ _ k q q' hq)

/-- The padded bias the region finds, at a column below 50: the bias. -/
theorem bias_apply (c : Dev nD) (q : Fin 128) (q' : Fin 50) (hq : q.val = q'.val) :
    biasArr m c (ix1 q) = bias m c (ix1 q') := by
  rw [V_bias]
  exact paddedB_apply _ _ _ q q' hq

end Cert.Logits.Kernel

end
-- ==== Proof.KernelLogits.lean ====
/-
  The kernel program's result, and its run.

  After the region the host keeps the first 50 of the 128 columns of the result array. At those columns the padding
  of the projection and of the bias is not seen, so the program's result at atom `a` and output `j` is
  `∑ r, T (a, r) · (∑ c, s (r, c) · W (c, j)) + b j`: the projections of the tokens' embeddings pooled over the atom's
  tokens.
-/
import proofs.«151351_j58591943852065_2_alg».proof.Proof.Logits
import proofs.«151351_j58591943852065_2_alg».proof.Proof.ArrayLogits
import proofs.«151351_j58591943852065_2_alg».proof.Proof.Projected
import Idealize.ShloMosaic.Lib.ValueLayout
import Idealize.ShloMosaic.Lib.StableHlo.Run

set_option maxRecDepth 16384

noncomputable section

namespace Cert.Logits.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The program's result: the first 50 columns of the result array after the region. -/
theorem result_slice (c : Dev nD) :
    (Pipeline.afterTail₀ cfgs (dats m) 0 (V0 m) [hostOps1] c main_v4 : S32768x50.Idx → EReal)
      = extractStridedSlice S32768x50 ![0, 0] (paddedLogits (incidenceArr m c) (projectedArr m c) (biasArr m c))
          slices_S32768x128_S32768x50_0_0 := by
  unfold Pipeline.afterTail₀
  show StableHlo.after hostOps1 _ (Proc.devRef .tc main_v4) = _
  after_results
  exact congrArg (fun X => extractStridedSlice S32768x50 ![0, 0] X slices_S32768x128_S32768x50_0_0)
    ((Pipeline.withArrays_arr spec0 launch0.win.arr_inj c (V0 m c) (fun w => (dats m 0 c).arrAt w cfg0.N) 3).trans (final m c))

/-- The program's result is `poolProjected` of the four argument arrays as launched. -/
theorem result_eq (c : Dev nD) :
    (Pipeline.afterTail₀ cfgs (dats m) 0 (V0 m) [hostOps1] c main_v4 : S32768x50.Idx → EReal)
      = poolProjected (embedding m c) (incidence m c) (projection m c) (bias m c) := by
  rw [result_slice]
  funext i
  obtain ⟨a, j, rfl⟩ : ∃ (a : Fin 32768) (j : Fin 50), i = ix2 a j := ⟨i 0, i 1, eq_ix2 i⟩
  have hj : j.val < 50 := j.isLt
  refine (slice2_axis1_apply 0 _ slices_S32768x128_S32768x50_0_0 a j ⟨j.val, by omega⟩ (Nat.zero_add _).symm).trans ?_
  show (∑ k : Fin 2048, incidenceArr m c (ix2 a k) * projectedArr m c (ix2 k ⟨j.val, _⟩)) + biasArr m c (ix1 ⟨j.val, _⟩)
    = (∑ r : Fin 2048, incidence m c (ix2 a r) * ∑ k : Fin 384, embedding m c (ix2 r k) * projection m c (ix2 k j))
      + bias m c (ix1 j)
  rw [incidenceArr_eq, bias_apply m c _ j rfl]
  exact congrArg (· + bias m c (ix1 j)) (Finset.sum_congr rfl fun r _ =>
    congrArg (incidence m c (ix2 a r) * ·) (projected_apply m c r _ j rfl))

/-- The kernel program's run: every weakly fair execution terminates with the result at `poolProjected` of the
    argument arrays, and the argument arrays unchanged. -/
theorem run : θ_run defs (onTc (τ := τ) (main (F := Ideal))) ⟨m, fun _ => 0, ρ⟩ (fun r => ∀ c : Dev nD,
      r.2.mem ((c.tc : Thread nD τ).loc main_v4) = poolProjected (embedding m c) (incidence m c) (projection m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Logits.Kernel

end
-- ==== Proof.lean ====
/-
  Per-atom logits of a residue-level embedding: a tiled kernel against its plain reference, over the extended reals.

  With `s` the token embedding (2048 × 384), `T` the atom-to-token incidence matrix (32768 × 2048), `W` the
  projection (384 × 50) and `b` the bias (50), the reference computes `(T · s) · W + b`. The kernel program pads
  `W` and `b` with zeros to 128 columns, forms `s · W` on the host, computes `T · (s · W) + b` block by block —
  1024 atoms per grid point, the two factors of the product passed through a narrower float format, which is
  the identity at the ideal values — and keeps the first 50 columns.

  At the ideal values both results are, at atom `a` and output `j`, a double sum over tokens `r` and channels `c`
  of `T (a, r) · s (r, c) · W (c, j)`, plus `b j`; they differ in which sum is taken first. The two groupings agree
  because every entry of `s`, `T` and `W` is a real number (the precondition): over the reals the product
  distributes over the finite sums and the two summations exchange. The padding columns never reach the result.

  The modules: `Logits` (the two groupings), `Regroup` (they agree on real entries), `RealInputs` (the
  precondition gives real entries), `RefLogits` (the reference's result is the pool-then-project grouping),
  `BlockLogits` (one block of the kernel at an entry), `Arrays` and `Projected` (the arrays the host prepares),
  `ArrayLogits` (from the blocks to the whole array), `KernelLogits` (the kernel program's result and run).
  The frames of the two kernel programs are the generated ones; the reference's frame is its generated run with
  the result dropped. The idealization rewrote nothing, so there is nothing to preserve.
-/
import proofs.«151351_j58591943852065_2_alg».proof.Defs
import proofs.«151351_j58591943852065_2_alg».proof.Proof.Gen.Kernel
import proofs.«151351_j58591943852065_2_alg».proof.Proof.Gen.Kernel.Skeleton
import proofs.«151351_j58591943852065_2_alg».proof.Proof.Gen.Kernel.Launch
import proofs.«151351_j58591943852065_2_alg».proof.Proof.Gen.Kernel.Points
import proofs.«151351_j58591943852065_2_alg».proof.Proof.Gen.Kernel.Frame
import proofs.«151351_j58591943852065_2_alg».proof.Proof.Gen.KernelIdeal
import proofs.«151351_j58591943852065_2_alg».proof.Proof.Gen.KernelIdeal.Skeleton
import proofs.«151351_j58591943852065_2_alg».proof.Proof.Gen.KernelIdeal.Launch
import proofs.«151351_j58591943852065_2_alg».proof.Proof.Gen.KernelIdeal.Points
import proofs.«151351_j58591943852065_2_alg».proof.Proof.Gen.KernelIdeal.Frame
import proofs.«151351_j58591943852065_2_alg».proof.Proof.Gen.ReferenceIdeal
import proofs.«151351_j58591943852065_2_alg».proof.Proof.Gen.Pre_finite_inputs
import proofs.«151351_j58591943852065_2_alg».proof.Proof.Gen.ReferenceIdeal.Run
import proofs.«151351_j58591943852065_2_alg».proof.Proof.Gen.ReferenceIdeal.Read
import proofs.«151351_j58591943852065_2_alg».proof.Proof.Regroup
import proofs.«151351_j58591943852065_2_alg».proof.Proof.RealInputs
import proofs.«151351_j58591943852065_2_alg».proof.Proof.RefLogits
import proofs.«151351_j58591943852065_2_alg».proof.Proof.KernelLogits
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program at the ideal values. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are real numbers, the kernel program ends at the project-then-pool grouping of the
    double sum and the reference at the pool-then-project grouping: the same extended reals, entry by entry. -/
theorem algebraic : Cert.algebraic_KernelIdeal_ReferenceIdeal := by
  intro m ρ m' ρ' hpre hagree
  refine ⟨fun c => Cert.Logits.poolProjected (Cert.Logits.Kernel.embedding m c) (Cert.Logits.Kernel.incidence m c)
    (Cert.Logits.Kernel.projection m c) (Cert.Logits.Kernel.bias m c), Cert.Logits.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨r0, r1, r2, -⟩ := Cert.Logits.allReal_of_finite_inputs _ _ _ _ (hpre c)
  rw [h0, h1, h2, h3, Cert.ReferenceIdeal.Read.val_main_v4_eq, Cert.Logits.reference_eq_projectPooled]
  exact (Cert.Logits.poolProjected_eq_projectPooled _ _ _ _ r0 r1 r2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
